-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The program's run from the launch to the return, with the RESULT ARRAY named.

  The program is four segments in order: a stretch of host operations, the first layer's kernel region, a second
  stretch of host operations, the second layer's kernel region. At each boundary between segments every buffer's
  contents are known: after a host stretch they are the stretch's operations applied to the contents before it; after
  a region they are the contents before it with each of the region's arrays replaced by what the region's write-backs
  leave there. The last boundary's contents `W4` are therefore what every final state holds, buffer by buffer. Read at
  the eight argument arrays they are the launch contents (nothing writes an argument); read at the result array they
  are what the second region leaves in its output, which is what this statement adds.
-/
import proofs.«117523_j39685497815503_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the eight argument arrays as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibMeanConv.lean ====
/-
  One layer of a graph convolution with mean aggregation, on the extended reals, index by index.

  For node features `h : [n, d]`, the sum `A : [n, d]` of each node's in-neighbours' features, a per-node
  divisor `q : [n]`, weights `wl wr : [e, d]` and a bias `b : [e]`, the layer's entry (r, j) is
      max ( (∑ k, (A (r, k) / q r) * wl (j, k)) + b j + ∑ k, h (r, k) * wr (j, k) ,  z )
  with `z` the floor of the clamp. Written with the reciprocal taken first, `A (r, k) * (1 / q r)`, and with the
  three summands in another order, it is the same number: dividing by `y ≠ 0` IS multiplying by `y⁻¹` on the
  extended reals, infinite `y` included, so `x * (1 / y) = x * (1 * y⁻¹) = x * y⁻¹ = x / y` for EVERY `x`, and
  addition there is commutative and associative. Nothing is asked to be finite. The divisor of a mean over a
  neighbourhood is `max (count, 1) ≥ 1`, never zero.
  Each entry reads one row of `A`, of `h` and of the scale: equal rows give equal entries, which is how a block of
  rows of the layer is the layer of the block.
  Also here: the word of 1.0 is the extended real 1, and a column `[a, 1]` broadcast along the rows to `[a, b]` reads,
  at (p, c), the column's entry of row p. Everything is generic in the extents.
-/
import Idealize.ShloMosaic.PureOps.Ideal
import Idealize.ShloMosaic.PureOps.Ideal.Laws
import Idealize.ShloMosaic.Lib.ValueIdx
import Idealize.ShloMosaic.Lib.Pipeline.Value
import proofs.«117523_j39685497815503_2_alg».proof.Proof.LibDotNT

noncomputable section

namespace Cert.MeanConv

open Idealize.ShloMosaic Idealize.ShloMosaic.ValueIdx Cert.LibDotNT

/-! ## The two scalar facts -/

/-- The single-precision word of 1.0 is the extended real 1. -/
theorem word_one : Ideal.ofBits .f32 0x3F800000#32 = 1 := by
  simp [Ideal.ofBits, Ideal.ieee]
  rw [← EReal.coe_mul]; norm_num

/-- Multiplying by the reciprocal of a nonzero extended real is dividing by it, whatever the numerator. -/
theorem mul_recip (x y : EReal) (hy : y ≠ 0) : x * Ideal.div 1 y = Ideal.div x y := by
  unfold Ideal.div
  rw [if_neg hy, if_neg hy, one_mul]

/-- A count floored at one is not zero. -/
theorem max_one_ne_zero (c : EReal) : max c 1 ≠ 0 :=
  (lt_of_lt_of_le zero_lt_one (le_max_right c 1)).ne'

/-! ## A column broadcast along the rows -/

/-- An `[a, 1]` column broadcast to `[a, b]` reads, at `(p, c)`, the column's entry of row `p`. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The layer, two ways -/

/-- The layer with each row of the neighbour sum SCALED by that row's factor `s (r, 0)` before the product, the two
    products added first and the bias row `b (0, j)` last. -/
def scaled {n d e : ℕ} (A h : (⟨2, ![n, d]⟩ : Shape).Idx → EReal) (s : (⟨2, ![n, 1]⟩ : Shape).Idx → EReal)
    (wl wr : (⟨2, ![e, d]⟩ : Shape).Idx → EReal) (b : (⟨2, ![1, e]⟩ : Shape).Idx → EReal) (z : EReal) :
    (⟨2, ![n, e]⟩ : Shape).Idx → EReal :=
  fun i => max ((rowDot (fun j => A j * s (ix2 (j 0) (0 : Fin 1))) wl i + rowDot h wr i) + b (ix2 (0 : Fin 1) (i 1))) z

/-- The layer with each row of the neighbour sum DIVIDED by that row's divisor `q r`, the bias `b j` added to the
    first product and the second product last. -/
def divided {n d e : ℕ} (A h : (⟨2, ![n, d]⟩ : Shape).Idx → EReal) (q : (⟨1, ![n]⟩ : Shape).Idx → EReal)
    (wl wr : (⟨2, ![e, d]⟩ : Shape).Idx → EReal) (b : (⟨1, ![e]⟩ : Shape).Idx → EReal) (z : EReal) :
    (⟨2, ![n, e]⟩ : Shape).Idx → EReal :=
  fun i => max ((rowDot (fun j => Ideal.div (A j) (q (ix1 (j 0)))) wl i + b (ix1 (i 1))) + rowDot h wr i) z

/-- The two are one function when the scale is the reciprocal of a divisor that is nowhere zero and the bias row is
    the bias. -/
theorem scaled_eq_divided {n d e : ℕ} (A h : (⟨2, ![n, d]⟩ : Shape).Idx → EReal)
    (s : (⟨2, ![n, 1]⟩ : Shape).Idx → EReal) (q : (⟨1, ![n]⟩ : Shape).Idx → EReal)
    (wl wr : (⟨2, ![e, d]⟩ : Shape).Idx → EReal) (b2 : (⟨2, ![1, e]⟩ : Shape).Idx → EReal)
    (b : (⟨1, ![e]⟩ : Shape).Idx → EReal) (z : EReal)
    (hs : ∀ r : Fin n, s (ix2 r (0 : Fin 1)) = Ideal.div 1 (q (ix1 r)))
    (hq : ∀ r : Fin n, q (ix1 r) ≠ 0)
    (hb : ∀ j : Fin e, b2 (ix2 (0 : Fin 1) j) = b (ix1 j)) :
    scaled A h s wl wr b2 z = divided A h q wl wr b z := by
  funext i
  have hrow : (fun j : (⟨2, ![n, d]⟩ : Shape).Idx => A j * s (ix2 (j 0) (0 : Fin 1)))
      = fun j => Ideal.div (A j) (q (ix1 (j 0))) :=
    funext fun j => (congrArg (A j * ·) (hs (j 0))).trans (mul_recip (A j) _ (hq (j 0)))
  show max ((rowDot (fun j => A j * s (ix2 (j 0) (0 : Fin 1))) wl i + rowDot h wr i) + b2 (ix2 (0 : Fin 1) (i 1))) z
      = max ((rowDot (fun j => Ideal.div (A j) (q (ix1 (j 0)))) wl i + b (ix1 (i 1))) + rowDot h wr i) z
  rw [hrow, hb (i 1), add_right_comm]

/-- Entry (r, j) of the scaled layer reads row r of the neighbour sum, of the features and of the scale: arrays
    with those rows equal, of any heights, give the same entry. -/
theorem scaled_row_congr {n n' d e : ℕ} (A h : (⟨2, ![n, d]⟩ : Shape).Idx → EReal) (s : (⟨2, ![n, 1]⟩ : Shape).Idx → EReal)
    (A' h' : (⟨2, ![n', d]⟩ : Shape).Idx → EReal) (s' : (⟨2, ![n', 1]⟩ : Shape).Idx → EReal)
    (wl wr : (⟨2, ![e, d]⟩ : Shape).Idx → EReal) (b : (⟨2, ![1, e]⟩ : Shape).Idx → EReal) (z : EReal)
    (r : Fin n) (r' : Fin n') (j : Fin e)
    (hA : ∀ k : Fin d, A (ix2 r k) = A' (ix2 r' k)) (hh : ∀ k : Fin d, h (ix2 r k) = h' (ix2 r' k))
    (hsr : s (ix2 r (0 : Fin 1)) = s' (ix2 r' (0 : Fin 1))) :
    scaled A h s wl wr b z (ix2 r j) = scaled A' h' s' wl wr b z (ix2 r' j) := by
  show max ((rowDot (fun j => A j * s (ix2 (j 0) (0 : Fin 1))) wl (ix2 r j) + rowDot h wr (ix2 r j)) + b (ix2 (0 : Fin 1) j)) z
      = max ((rowDot (fun j => A' j * s' (ix2 (j 0) (0 : Fin 1))) wl (ix2 r' j) + rowDot h' wr (ix2 r' j)) + b (ix2 (0 : Fin 1) j)) z
  rw [rowDot_congr (fun j => A j * s (ix2 (j 0) (0 : Fin 1))) wl (fun j => A' j * s' (ix2 (j 0) (0 : Fin 1))) wl r j r' j
        (fun k => by show A (ix2 r k) * s (ix2 r (0 : Fin 1)) = A' (ix2 r' k) * s' (ix2 r' (0 : Fin 1)); rw [hA k, hsr])
        (fun _ => rfl),
      rowDot_congr h wr h' wr r j r' j hh (fun _ => rfl)]

end Cert.MeanConv

end
-- ==== Proof.Payload.lean ====
/-
  What one grid point of each layer's kernel computes, as a function of the six blocks it loads.

  A point holds 5000 consecutive nodes. It loads their rows of the neighbour sum `A`, of the features `h` and of the
  per-node scale `s` (a column), and the whole of both weight matrices and of the bias row. It scales each row of `A`
  by that row's `s`, multiplies the scaled rows and the feature rows each against the ROWS of its weight matrix
  (both operands contracted along their last axis) into zero accumulators, adds the two products, adds the bias row
  to every row, and clamps below at the word of 0.0. A change of float format is the identity on the extended reals,
  a shape cast to the same shape is the identity, and a column broadcast along the row reads the column's entry of
  that row. So the stored block is the scaled layer (`MeanConv.scaled`) of the loaded blocks, entry by entry.
  The second layer's kernel is the same computation; its text casts the feature block to its own shape once more.
-/
import proofs.«117523_j39685497815503_2_alg».proof.Proof.Gen.KernelIdeal.Skeleton
import proofs.«117523_j39685497815503_2_alg».proof.Proof.LibMeanConv
import Idealize.ShloMosaic.Lib.Pipeline.Value
import Idealize.ShloMosaic.Lib.ValueLayout

noncomputable section

namespace Cert.KernelIdeal.Payload

open Cert.KernelIdeal Cert.KernelIdeal.Gen
open Idealize.ShloMosaic Idealize.ShloMosaic.ValueIdx Cert.LibDotNT Cert.MeanConv

/-- The rows of the neighbour sum scaled by the column, as the body spells it, are the entrywise product with the
    row's scale. -/
theorem scaled_rows (x0 : FVec Ideal S5000x128 .f32) (x2 : FVec Ideal S5000x1 .f32)
    (h0 : S5000x128.ShapeCasts S5000x128) (h2 : S5000x1.ShapeCasts S5000x1) (hb : S5000x1.Broadcasts S5000x128)
    (hbits : FTy.bits .bf16 < FTy.bits .f32) :
    (truncf .bf16 (mulf (shapeCast S5000x128 x0 h0) (broadcastTo S5000x128 (shapeCast S5000x1 x2 h2) hb)) hbits
        : FVec Ideal S5000x128 .bf16)
      = fun j => x0 j * x2 (ix2 (j 0) (0 : Fin 1)) := by
  funext j
  obtain ⟨p, q, rfl⟩ : ∃ (p : Fin 5000) (q : Fin 128), j = ix2 p q := ⟨j 0, j 1, eq_ix2 j⟩
  show shapeCast S5000x128 x0 h0 (ix2 p q) * broadcastTo S5000x128 (shapeCast S5000x1 x2 h2) hb (ix2 p q)
      = x0 (ix2 p q) * x2 (ix2 p (0 : Fin 1))
  rw [shapeCast_self x0 h0, shapeCast_self x2 h2]
  exact congrArg (x0 (ix2 p q) * ·) (broadcast_column (a := 5000) (b := 128) x2 hb p q)

/-- A block's product against the rows of a weight matrix, into the zero accumulator, is the row-against-row sum. -/
theorem block_product {φ₁ φ₂ : FTy} (x : FVec Ideal S5000x128 φ₁) (w : FVec Ideal S128x128 φ₂) (i : S5000x128.Idx) :
    matmul dot_S5000x128_S128x128_S5000x128_1_1_0_0_n_n none x w (constant (F := Ideal) S5000x128 .f32 0x00000000#32) i
      = rowDot (M := 5000) (K := 128) (N := 128) x w i :=
  matmul_tr (M := 5000) (K := 128) (N := 128) x w i

/-- THE FIRST LAYER'S PAYLOAD is the scaled layer of the loaded blocks. -/
theorem first (x0 : Vec Ideal S5000x128 .f32) (x2 : Vec Ideal S5000x1 .f32) (x1 : Vec Ideal S5000x128 .f32)
    (x3 x4 : Vec Ideal S128x128 .f32) (x5 : Vec Ideal S1x128 .f32) :
    k0_pay1 (F := Ideal) x0 x2 x1 x3 x4 x5
      = scaled (n := 5000) (d := 128) (e := 128) x0 x1 x2 x3 x4 x5 (Ideal.ofBits .f32 0x00000000#32) := by
  funext j
  obtain ⟨p, q, rfl⟩ : ∃ (p : Fin 5000) (q : Fin 128), j = ix2 p q := ⟨j 0, j 1, eq_ix2 j⟩
  unfold k0_pay1
  rw [scaled_rows x0 x2]
  show max ((matmul dot_S5000x128_S128x128_S5000x128_1_1_0_0_n_n none (fun j => x0 j * x2 (ix2 (j 0) (0 : Fin 1))) x3
              (constant (F := Ideal) S5000x128 .f32 0x00000000#32) (ix2 p q)
            + matmul dot_S5000x128_S128x128_S5000x128_1_1_0_0_n_n none x1 x4
              (constant (F := Ideal) S5000x128 .f32 0x00000000#32) (ix2 p q))
            + broadcastTo S5000x128 (shapeCast S1x128 x5 shapeCasts_S1x128_S1x128) broadcasts_S1x128_S5000x128 (ix2 p q))
          (Ideal.ofBits .f32 0x00000000#32) = _
  rw [block_product, block_product, shapeCast_self x5,
    broadcastTo_1b_ab_apply (a := 5000) (b := 128) x5 broadcasts_S1x128_S5000x128 p q]
  rfl

/-- THE SECOND LAYER'S PAYLOAD is the same function of its blocks. -/
theorem second (x0 : Vec Ideal S5000x128 .f32) (x2 : Vec Ideal S5000x1 .f32) (x1 : Vec Ideal S5000x128 .f32)
    (x3 x4 : Vec Ideal S128x128 .f32) (x5 : Vec Ideal S1x128 .f32) :
    k1_pay1 (F := Ideal) x0 x2 x1 x3 x4 x5
      = scaled (n := 5000) (d := 128) (e := 128) x0 x1 x2 x3 x4 x5 (Ideal.ofBits .f32 0x00000000#32) := by
  funext j
  obtain ⟨p, q, rfl⟩ : ∃ (p : Fin 5000) (q : Fin 128), j = ix2 p q := ⟨j 0, j 1, eq_ix2 j⟩
  unfold k1_pay1
  rw [scaled_rows x0 x2, shapeCast_self x1]
  show max ((matmul dot_S5000x128_S128x128_S5000x128_1_1_0_0_n_n none (fun j => x0 j * x2 (ix2 (j 0) (0 : Fin 1))) x3
              (constant (F := Ideal) S5000x128 .f32 0x00000000#32) (ix2 p q)
            + matmul dot_S5000x128_S128x128_S5000x128_1_1_0_0_n_n none x1 x4
              (constant (F := Ideal) S5000x128 .f32 0x00000000#32) (ix2 p q))
            + broadcastTo S5000x128 (shapeCast S1x128 x5 shapeCasts_S1x128_S1x128) broadcasts_S1x128_S5000x128 (ix2 p q))
          (Ideal.ofBits .f32 0x00000000#32) = _
  rw [block_product, block_product, shapeCast_self x5,
    broadcastTo_1b_ab_apply (a := 5000) (b := 128) x5 broadcasts_S1x128_S5000x128 p q]
  rfl

end Cert.KernelIdeal.Payload

end
-- ==== Proof.Region0.lean ====
/-
  What the first layer's kernel region leaves in its output array, whatever contents it is entered with.

  The region runs twenty grid points. Point `t` holds the nodes `5000·t … 5000·t + 4999`: its blocks of the
  neighbour sum, of the features and of the scale column are those rows of their arrays, its blocks of the two weight
  matrices and of the bias row are those arrays whole, and it writes back its 5000 rows of the output. An element of
  a block sits in its array at block index × block size + its coordinate inside the block, on each axis.
  Entry (p, j) of what point `t` writes is the scaled layer of its blocks (the payload), which reads row `p` of the
  row blocks only, that is row `5000·t + p` of the arrays: so what `t` writes back is ITS BLOCK of one whole-array
  function, the scaled layer of the arrays. Row `r` of the output is written by point `r / 5000`, so the twenty
  blocks cover the output, and it ends holding that function.
-/
import proofs.«117523_j39685497815503_2_alg».proof.Proof.Gen.KernelIdeal.Frame
import proofs.«117523_j39685497815503_2_alg».proof.Proof.Payload

set_option maxRecDepth 16384

noncomputable section

namespace Cert.KernelIdeal.Layer0

open Cert.KernelIdeal Cert.KernelIdeal.Gen
open Idealize.ShloMosaic Idealize.ShloMosaic.TcCoe Idealize.SL.Sem
open Idealize.ShloMosaic.ValueIdx Cert.MeanConv
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole-array function: the scaled layer of the six arrays as the region finds them. -/
abbrev whole (c : Dev nD) : S100000x128.Idx → EReal :=
  scaled (n := 100000) (d := 128) (e := 128) (V c main_v22) (V c main_arg0) (V c main_v12) (V c main_arg2) (V c main_arg3) (V c main_v23)
    (Ideal.ofBits .f32 0x00000000#32)

/-- The printed index maps, decided over the twenty points: the row windows sit at block row `t`, the others at the
    origin. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the whole-array function. -/
theorem flushed (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  rw [Payload.first]
  obtain ⟨a0, a1, h0, h1, s0, s1, l0, l1, r0, r1, b0, b1, o0, o1⟩ := block_rows t
  have ht : t.val < 20 := t.isLt
  funext j
  obtain ⟨p, q, rfl⟩ : ∃ (p : Fin 5000) (q : Fin 128), j = ix2 p q := ⟨j 0, j 1, eq_ix2 j⟩
  have hp : p.val < 5000 := p.isLt
  -- the row of the arrays that row `p` of point `t`'s blocks is
  let r : Fin 100000 := ⟨t.val * 5000 + p.val, by omega⟩
  -- the three whole windows: the block is the array
  have eL : (iblk0 V c 3 t : S128x128.Idx → EReal) = V c main_arg2 := funext fun y =>
    congrArg (V c main_arg2) (funext fun a => Fin.ext (by
      match a with
      | ⟨0, _⟩ => show win0_3.index t (0 : Fin 2) * 128 + 1 * (y 0).val = (y 0).val; omega
      | ⟨1, _⟩ => show win0_3.index t (1 : Fin 2) * 128 + 1 * (y 1).val = (y 1).val; omega))
  have eR : (iblk0 V c 4 t : S128x128.Idx → EReal) = V c main_arg3 := funext fun y =>
    congrArg (V c main_arg3) (funext fun a => Fin.ext (by
      match a with
      | ⟨0, _⟩ => show win0_4.index t (0 : Fin 2) * 128 + 1 * (y 0).val = (y 0).val; omega
      | ⟨1, _⟩ => show win0_4.index t (1 : Fin 2) * 128 + 1 * (y 1).val = (y 1).val; omega))
  have eB : (iblk0 V c 5 t : S1x128.Idx → EReal) = V c main_v23 := funext fun y =>
    congrArg (V c main_v23) (funext fun a => Fin.ext (by
      match a with
      | ⟨0, _⟩ => show win0_5.index t (0 : Fin 2) * 1 + 1 * (y 0).val = (y 0).val; omega
      | ⟨1, _⟩ => show win0_5.index t (1 : Fin 2) * 128 + 1 * (y 1).val = (y 1).val; omega))
  -- the three row windows: row `p` of the block is row `r` of the array
  have eA : ∀ k : Fin 128, (iblk0 V c 0 t : S5000x128.Idx → EReal) (ix2 p k) = V c main_v22 (ix2 r k) := fun k =>
    congrArg (V c main_v22) (funext fun a => Fin.ext (by
      match a with
      | ⟨0, _⟩ => show win0_0.index t (0 : Fin 2) * 5000 + 1 * p.val = t.val * 5000 + p.val; omega
      | ⟨1, _⟩ => show win0_0.index t (1 : Fin 2) * 128 + 1 * k.val = k.val; omega))
  have eH : ∀ k : Fin 128, (iblk0 V c 1 t : S5000x128.Idx → EReal) (ix2 p k) = V c main_arg0 (ix2 r k) := fun k =>
    congrArg (V c main_arg0) (funext fun a => Fin.ext (by
      match a with
      | ⟨0, _⟩ => show win0_1.index t (0 : Fin 2) * 5000 + 1 * p.val = t.val * 5000 + p.val; omega
      | ⟨1, _⟩ => show win0_1.index t (1 : Fin 2) * 128 + 1 * k.val = k.val; omega))
  have eS : (iblk0 V c 2 t : S5000x1.Idx → EReal) (ix2 p (0 : Fin 1)) = V c main_v12 (ix2 r (0 : Fin 1)) :=
    congrArg (V c main_v12) (funext fun a => Fin.ext (by
      match a with
      | ⟨0, _⟩ => show win0_2.index t (0 : Fin 2) * 5000 + 1 * p.val = t.val * 5000 + p.val; omega
      | ⟨1, _⟩ => show win0_2.index t (1 : Fin 2) * 1 + 1 * 0 = 0; omega))
  -- where entry (p, q) of the output block sits in the output array
  have eO : ((cfg0.win 6).blk t).view.emb (ix2 p q) = (ix2 r q : S100000x128.Idx) := funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  show scaled (n := 5000) (d := 128) (e := 128) (iblk0 V c 0 t) (iblk0 V c 1 t) (iblk0 V c 2 t) (iblk0 V c 3 t)
        (iblk0 V c 4 t) (iblk0 V c 5 t) (Ideal.ofBits .f32 0x00000000#32) (ix2 p q)
      = whole V c (((cfg0.win 6).blk t).view.emb (ix2 p q))
  rw [eO, eL, eR, eB]
  exact scaled_row_congr (n := 5000) (n' := 100000) (d := 128) (e := 128) _ _ _ _ _ _ _ _ _ _ p r q eA eH eS

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Every index of the output array is in the block of the point that holds its row. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  let t : Fin cfg0.N := ⟨(i 0).val / 5000, hlt⟩
  have htv : t.val = (i 0).val / 5000 := rfl
  obtain ⟨a0, a1, h0, h1, s0, s1, l0, l1, r0, r1, b0, b1, o0, o1⟩ := block_rows t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE OUTPUT ARRAY after the region: the scaled layer of the arrays it was entered with. -/
theorem final (c : Dev nD) : (dat0 V c).arrAt 6 cfg0.N = whole V c :=
  (dat0 V c).arrAt_eq_of_cover 6 (whole V c) (fun t _ => flushed V c t) (covered)

end Cert.KernelIdeal.Layer0

end
-- ==== Proof.Region1.lean ====
/-
  What the second layer's kernel region leaves in its output array, whatever contents it is entered with.

  The region runs twenty grid points. Point `t` holds the nodes `5000·t … 5000·t + 4999`: its blocks of the
  neighbour sum, of the features and of the scale column are those rows of their arrays, its blocks of the two weight
  matrices and of the bias row are those arrays whole, and it writes back its 5000 rows of the output. An element of
  a block sits in its array at block index × block size + its coordinate inside the block, on each axis.
  Entry (p, j) of what point `t` writes is the scaled layer of its blocks (the payload), which reads row `p` of the
  row blocks only, that is row `5000·t + p` of the arrays: so what `t` writes back is ITS BLOCK of one whole-array
  function, the scaled layer of the arrays. Row `r` of the output is written by point `r / 5000`, so the twenty
  blocks cover the output, and it ends holding that function.
-/
import proofs.«117523_j39685497815503_2_alg».proof.Proof.Gen.KernelIdeal.Frame
import proofs.«117523_j39685497815503_2_alg».proof.Proof.Payload

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.ValueIdx Cert.MeanConv
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole-array function: the scaled layer of the six arrays as the region finds them. -/
abbrev whole (c : Dev nD) : S100000x128.Idx → EReal :=
  scaled (n := 100000) (d := 128) (e := 128) (V c main_v34) (V c main_v24) (V c main_v12) (V c main_arg5) (V c main_arg6) (V c main_v35)
    (Ideal.ofBits .f32 0x00000000#32)

/-- The printed index maps, decided over the twenty points: the row windows sit at block row `t`, the others at the
    origin. -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the whole-array function. -/
theorem flushed (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  rw [Payload.second]
  obtain ⟨a0, a1, h0, h1, s0, s1, l0, l1, r0, r1, b0, b1, o0, o1⟩ := block_rows t
  have ht : t.val < 20 := t.isLt
  funext j
  obtain ⟨p, q, rfl⟩ : ∃ (p : Fin 5000) (q : Fin 128), j = ix2 p q := ⟨j 0, j 1, eq_ix2 j⟩
  have hp : p.val < 5000 := p.isLt
  -- the row of the arrays that row `p` of point `t`'s blocks is
  let r : Fin 100000 := ⟨t.val * 5000 + p.val, by omega⟩
  -- the three whole windows: the block is the array
  have eL : (iblk1 V c 3 t : S128x128.Idx → EReal) = V c main_arg5 := funext fun y =>
    congrArg (V c main_arg5) (funext fun a => Fin.ext (by
      match a with
      | ⟨0, _⟩ => show win1_3.index t (0 : Fin 2) * 128 + 1 * (y 0).val = (y 0).val; omega
      | ⟨1, _⟩ => show win1_3.index t (1 : Fin 2) * 128 + 1 * (y 1).val = (y 1).val; omega))
  have eR : (iblk1 V c 4 t : S128x128.Idx → EReal) = V c main_arg6 := funext fun y =>
    congrArg (V c main_arg6) (funext fun a => Fin.ext (by
      match a with
      | ⟨0, _⟩ => show win1_4.index t (0 : Fin 2) * 128 + 1 * (y 0).val = (y 0).val; omega
      | ⟨1, _⟩ => show win1_4.index t (1 : Fin 2) * 128 + 1 * (y 1).val = (y 1).val; omega))
  have eB : (iblk1 V c 5 t : S1x128.Idx → EReal) = V c main_v35 := funext fun y =>
    congrArg (V c main_v35) (funext fun a => Fin.ext (by
      match a with
      | ⟨0, _⟩ => show win1_5.index t (0 : Fin 2) * 1 + 1 * (y 0).val = (y 0).val; omega
      | ⟨1, _⟩ => show win1_5.index t (1 : Fin 2) * 128 + 1 * (y 1).val = (y 1).val; omega))
  -- the three row windows: row `p` of the block is row `r` of the array
  have eA : ∀ k : Fin 128, (iblk1 V c 0 t : S5000x128.Idx → EReal) (ix2 p k) = V c main_v34 (ix2 r k) := fun k =>
    congrArg (V c main_v34) (funext fun a => Fin.ext (by
      match a with
      | ⟨0, _⟩ => show win1_0.index t (0 : Fin 2) * 5000 + 1 * p.val = t.val * 5000 + p.val; omega
      | ⟨1, _⟩ => show win1_0.index t (1 : Fin 2) * 128 + 1 * k.val = k.val; omega))
  have eH : ∀ k : Fin 128, (iblk1 V c 1 t : S5000x128.Idx → EReal) (ix2 p k) = V c main_v24 (ix2 r k) := fun k =>
    congrArg (V c main_v24) (funext fun a => Fin.ext (by
      match a with
      | ⟨0, _⟩ => show win1_1.index t (0 : Fin 2) * 5000 + 1 * p.val = t.val * 5000 + p.val; omega
      | ⟨1, _⟩ => show win1_1.index t (1 : Fin 2) * 128 + 1 * k.val = k.val; omega))
  have eS : (iblk1 V c 2 t : S5000x1.Idx → EReal) (ix2 p (0 : Fin 1)) = V c main_v12 (ix2 r (0 : Fin 1)) :=
    congrArg (V c main_v12) (funext fun a => Fin.ext (by
      match a with
      | ⟨0, _⟩ => show win1_2.index t (0 : Fin 2) * 5000 + 1 * p.val = t.val * 5000 + p.val; omega
      | ⟨1, _⟩ => show win1_2.index t (1 : Fin 2) * 1 + 1 * 0 = 0; omega))
  -- where entry (p, q) of the output block sits in the output array
  have eO : ((cfg1.win 6).blk t).view.emb (ix2 p q) = (ix2 r q : S100000x128.Idx) := funext fun a => Fin.ext (by
      match a with
      | ⟨0, _⟩ => show win1_6.index t (0 : Fin 2) * 5000 + 1 * p.val = t.val * 5000 + p.val; omega
      | ⟨1, _⟩ => show win1_6.index t (1 : Fin 2) * 128 + 1 * q.val = q.val; omega)
  show scaled (n := 5000) (d := 128) (e := 128) (iblk1 V c 0 t) (iblk1 V c 1 t) (iblk1 V c 2 t) (iblk1 V c 3 t)
        (iblk1 V c 4 t) (iblk1 V c 5 t) (Ideal.ofBits .f32 0x00000000#32) (ix2 p q)
      = whole V c (((cfg1.win 6).blk t).view.emb (ix2 p q))
  rw [eO, eL, eR, eB]
  exact scaled_row_congr (n := 5000) (n' := 100000) (d := 128) (e := 128) _ _ _ _ _ _ _ _ _ _ p r q eA eH eS

/-- An index of the output array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- Every index of the output array is in the block of the point that holds its row. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < 20 := by omega
  let t : Fin cfg1.N := ⟨(i 0).val / 5000, hlt⟩
  have htv : t.val = (i 0).val / 5000 := rfl
  obtain ⟨a0, a1, h0, h1, s0, s1, l0, l1, r0, r1, b0, b1, o0, o1⟩ := block_rows t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE OUTPUT ARRAY after the region: the scaled layer of the arrays it was entered with. -/
theorem final (c : Dev nD) : (dat1 V c).arrAt 6 cfg1.N = whole V c :=
  (dat1 V c).arrAt_eq_of_cover 6 (whole V c) (fun t _ => flushed V c t) (covered)

end Cert.KernelIdeal.Layer1

end
-- ==== Proof.RefLayer.lean ====
/-
  The reference's two layers, each as one function of its inputs.

  The reference computes a layer as: the neighbour sum divided row by row by the floored neighbour count, times the
  TRANSPOSE of the first weight matrix (a row-by-column product), plus the bias broadcast over the rows, plus the
  features times the transpose of the second weight matrix, clamped below at the word of 0.0. A row-by-column product
  with a transposed matrix is the row-against-row product with the matrix itself, and a `[e] → [1, e] → [n, e]` broadcast
  reads the bias at the column. So each layer's stage is the divided layer (`MeanConv.divided`) of that layer's
  neighbour sum, features, divisor, weights and bias, entry by entry — the neighbour sums and the divisor being whatever
  the gather and the scatter-additions before them produce: they enter as arrays and are never opened.
  The divisor is a count floored at the word of 1.0, so it is nowhere zero.
-/
import proofs.«117523_j39685497815503_2_alg».proof.Proof.Gen.ReferenceIdeal.Read
import proofs.«117523_j39685497815503_2_alg».proof.Proof.LibMeanConv

noncomputable section

namespace Cert.ReferenceIdeal.Layers

open Cert.ReferenceIdeal Cert.ReferenceIdeal.Read
open Idealize.ShloMosaic Idealize.ShloMosaic.ValueIdx Cert.LibDotNT Cert.MeanConv

/-- THE FIRST LAYER's stage is the divided layer of the input features and their neighbour sum. -/
theorem first (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v31 (F := Ideal) x0 x1 x2 x3 x4
      = divided (n := 100000) (d := 128) (e := 128) (val_main_v13 (F := Ideal) x0 x1) (x0) (val_main_v19 (F := Ideal) x1) x2 x3 x4
          (Ideal.ofBits .f32 0x00000000#32) := by
  funext i
  obtain ⟨r, j, rfl⟩ : ∃ (r : Fin 100000) (j : Fin 128), i = ix2 r j := ⟨i 0, i 1, eq_ix2 i⟩
  have e1 : ∀ k : Fin 128, lidx_main_v24 (ix2 r j) k = ix2 r k := fun k =>
    funext fun a => Fin.ext (by match a with | ⟨0, _⟩ => rfl | ⟨1, _⟩ => rfl)
  have e2 : ∀ k : Fin 128, idx_main_v23 (ridx_main_v24 (ix2 r j) k) = ix2 j k := fun k =>
    funext fun a => Fin.ext (by match a with | ⟨0, _⟩ => rfl | ⟨1, _⟩ => rfl)
  have e3 : ∀ k : Fin 128, idx_main_v20 (idx_main_v21 (ix2 r k)) = ix1 r := fun k =>
    funext fun a => Fin.ext (by match a with | ⟨0, _⟩ => rfl)
  have e4 : ∀ k : Fin 128, lidx_main_v29 (ix2 r j) k = ix2 r k := fun k =>
    funext fun a => Fin.ext (by match a with | ⟨0, _⟩ => rfl | ⟨1, _⟩ => rfl)
  have e5 : ∀ k : Fin 128, idx_main_v28 (ridx_main_v29 (ix2 r j) k) = ix2 j k := fun k =>
    funext fun a => Fin.ext (by match a with | ⟨0, _⟩ => rfl | ⟨1, _⟩ => rfl)
  have e6 : idx_main_v25 (idx_main_v26 (ix2 r j)) = ix1 j :=
    funext fun a => Fin.ext (by match a with | ⟨0, _⟩ => rfl)
  rw [val_main_v31_apply, val_main_v30_apply, val_main_v27_apply, val_main_v24_apply, val_main_v29_apply,
    val_main_v26_apply, val_main_v25_apply, val_main_call0_v0_apply, val_main_call0_cst_apply]
  -- the summands of the two products, one column k at a time
  have s1 : ∀ k : Fin 128,
      val_main_v22 (F := Ideal) x0 x1 (lidx_main_v24 (ix2 r j) k) * val_main_v23 (F := Ideal) x2 (ridx_main_v24 (ix2 r j) k)
        = Ideal.div ((val_main_v13 (F := Ideal) x0 x1) (ix2 r k)) ((val_main_v19 (F := Ideal) x1) (ix1 r)) * x2 (ix2 j k) := fun k => by
    rw [e1 k, val_main_v22_apply, val_main_v21_apply, val_main_v20_apply, e3 k, val_main_v23_apply, e2 k]
    rfl
  have s2 : ∀ k : Fin 128,
      (x0) (lidx_main_v29 (ix2 r j) k) * val_main_v28 (F := Ideal) x3 (ridx_main_v29 (ix2 r j) k)
        = (x0) (ix2 r k) * x3 (ix2 j k) := fun k => by
    rw [e4 k, val_main_v28_apply, e5 k]
  rw [Finset.sum_congr rfl (fun k _ => s1 k), Finset.sum_congr rfl (fun k _ => s2 k), e6]
  -- the neighbour sum, the divisor enter only as arrays: name them
  generalize val_main_v13 (F := Ideal) x0 x1 = A
  generalize val_main_v19 (F := Ideal) x1 = q
  rfl

/-- THE SECOND LAYER's stage is the divided layer of the first layer's output and of its neighbour sum. -/
theorem second (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    val_main_v59 (F := Ideal) x0 x1 x2 x3 x4 x5 x6 x7
      = divided (n := 100000) (d := 128) (e := 128) (val_main_v41 (F := Ideal) x0 x1 x2 x3 x4) (val_main_v31 (F := Ideal) x0 x1 x2 x3 x4) (val_main_v47 (F := Ideal) x1) x5 x6 x7
          (Ideal.ofBits .f32 0x00000000#32) := by
  funext i
  obtain ⟨r, j, rfl⟩ : ∃ (r : Fin 100000) (j : Fin 128), i = ix2 r j := ⟨i 0, i 1, eq_ix2 i⟩
  have e1 : ∀ k : Fin 128, lidx_main_v52 (ix2 r j) k = ix2 r k := fun k =>
    funext fun a => Fin.ext (by match a with | ⟨0, _⟩ => rfl | ⟨1, _⟩ => rfl)
  have e2 : ∀ k : Fin 128, idx_main_v51 (ridx_main_v52 (ix2 r j) k) = ix2 j k := fun k =>
    funext fun a => Fin.ext (by match a with | ⟨0, _⟩ => rfl | ⟨1, _⟩ => rfl)
  have e3 : ∀ k : Fin 128, idx_main_v48 (idx_main_v49 (ix2 r k)) = ix1 r := fun k =>
    funext fun a => Fin.ext (by match a with | ⟨0, _⟩ => rfl)
  have e4 : ∀ k : Fin 128, lidx_main_v57 (ix2 r j) k = ix2 r k := fun k =>
    funext fun a => Fin.ext (by match a with | ⟨0, _⟩ => rfl | ⟨1, _⟩ => rfl)
  have e5 : ∀ k : Fin 128, idx_main_v56 (ridx_main_v57 (ix2 r j) k) = ix2 j k := fun k =>
    funext fun a => Fin.ext (by match a with | ⟨0, _⟩ => rfl | ⟨1, _⟩ => rfl)
  have e6 : idx_main_v53 (idx_main_v54 (ix2 r j)) = ix1 j :=
    funext fun a => Fin.ext (by match a with | ⟨0, _⟩ => rfl)
  rw [val_main_v59_apply, val_main_v58_apply, val_main_v55_apply, val_main_v52_apply, val_main_v57_apply,
    val_main_v54_apply, val_main_v53_apply, val_main_call1_v0_apply, val_main_call1_cst_apply]
  -- the summands of the two products, one column k at a time
  have s1 : ∀ k : Fin 128,
      val_main_v50 (F := Ideal) x0 x1 x2 x3 x4 (lidx_main_v52 (ix2 r j) k) * val_main_v51 (F := Ideal) x5 (ridx_main_v52 (ix2 r j) k)
        = Ideal.div ((val_main_v41 (F := Ideal) x0 x1 x2 x3 x4) (ix2 r k)) ((val_main_v47 (F := Ideal) x1) (ix1 r)) * x5 (ix2 j k) := fun k => by
    rw [e1 k, val_main_v50_apply, val_main_v49_apply, val_main_v48_apply, e3 k, val_main_v51_apply, e2 k]
    rfl
  have s2 : ∀ k : Fin 128,
      (val_main_v31 (F := Ideal) x0 x1 x2 x3 x4) (lidx_main_v57 (ix2 r j) k) * val_main_v56 (F := Ideal) x6 (ridx_main_v57 (ix2 r j) k)
        = (val_main_v31 (F := Ideal) x0 x1 x2 x3 x4) (ix2 r k) * x6 (ix2 j k) := fun k => by
    rw [e4 k, val_main_v56_apply, e5 k]
  rw [Finset.sum_congr rfl (fun k _ => s1 k), Finset.sum_congr rfl (fun k _ => s2 k), e6]
  -- the neighbour sum, the divisor and the features enter only as arrays: name them
  generalize val_main_v41 (F := Ideal) x0 x1 x2 x3 x4 = A
  generalize val_main_v31 (F := Ideal) x0 x1 x2 x3 x4 = h
  generalize val_main_v47 (F := Ideal) x1 = q
  rfl

/-! ## The divisor is nowhere zero -/

/-- The first layer's divisor, the neighbour count floored at the word of 1.0, is not zero at any node. -/
theorem divisor_ne_zero (x1 : (⟨S2x1600000, .i32⟩ : BufTy).Contents (Elt Ideal)) (r : Fin 100000) : val_main_v19 (F := Ideal) x1 (ix1 r) ≠ 0 := by
  rw [val_main_v19_apply, val_main_v18_apply, val_main_cst_3_apply]
  show max (val_main_v17 (F := Ideal) x1 (ix1 r)) (Ideal.ofBits .f32 0x3F800000#32) ≠ 0
  rw [word_one]
  exact max_one_ne_zero _

/-- The second layer's divisor likewise. -/
theorem divisor_ne_zero' (x1 : (⟨S2x1600000, .i32⟩ : BufTy).Contents (Elt Ideal)) (r : Fin 100000) : val_main_v47 (F := Ideal) x1 (ix1 r) ≠ 0 := by
  rw [val_main_v47_apply, val_main_v46_apply, val_main_cst_9_apply]
  show max (val_main_v45 (F := Ideal) x1 (ix1 r)) (Ideal.ofBits .f32 0x3F800000#32) ≠ 0
  rw [word_one]
  exact max_one_ne_zero _

end Cert.ReferenceIdeal.Layers

end
-- ==== Proof.Boundaries.lean ====
/-
  What each kernel region is entered with, and what the program's result array ends holding.

  Before the first region the host has computed, from the features `x` and the edge list: the neighbour sum of `x`
  (a gather of the source rows, scatter-added at the destinations), the neighbour count floored at 1.0, the column of
  its reciprocals `1 / max (count, 1)`, and the first bias as a one-row matrix; the features and the weights are the
  arguments themselves. These are exactly the reference's own neighbour sum and divisor, the same operations on the
  same inputs, so the first region, which leaves the scaled layer of what it is entered with, leaves the reference's
  first layer: the scaled layer is the divided layer because the scale is the reciprocal of a divisor that is nowhere
  zero.
  Between the regions the host gathers and scatter-adds the FIRST LAYER'S OUTPUT along the same edges — the reference's
  second neighbour sum once that output is the reference's — and broadcasts the second bias; the scale column is the
  one already computed (a region's input arrays leave it as they entered), and the reference's second divisor is the
  same count floored at 1.0. So the second region leaves the reference's second layer, which is its result.
-/
import proofs.«117523_j39685497815503_2_alg».proof.Proof.Gen.KernelIdeal.Frame
import proofs.«117523_j39685497815503_2_alg».proof.Proof.Region0
import proofs.«117523_j39685497815503_2_alg».proof.Proof.Region1
import proofs.«117523_j39685497815503_2_alg».proof.Proof.RefLayer
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem
open Idealize.ShloMosaic.ValueIdx Cert.MeanConv
open Cert.ReferenceIdeal.Read

variable (m : (ℓ : Loc nD τ sig) → Buf (Elt Ideal) ℓ) (ρ : Dev nD → PrngReg) (c : Dev nD)

/-! ## The arguments as launched -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)

/-! ## The scale column and the bias row, read at an index -/

/-- The column `1 / q` of a divisor `q : [n]`, as the host spells it: the word of 1.0 broadcast, divided by `q`,
    given a trailing unit axis. -/
def recipColumn (q : S100000.Idx → EReal) : S100000x1.Idx → EReal :=
  broadcastInDim S100000x1 ![0] bcast_S100000_S100000x1_0
    (Host.divf (F := Ideal) (broadcastInDim S100000 ![] bcast_S_S100000 (constant (F := Ideal) S_ .f32 0x3F800000#32)) q)

/-- Its entry of row `r` is `1 / q r`. -/
theorem recipColumn_apply (q : S100000.Idx → EReal) (r : Fin 100000) :
    recipColumn q (ix2 r (0 : Fin 1)) = Ideal.div 1 (q (ix1 r)) := by
  unfold recipColumn
  rw [broadcastInDim_apply _ bcast_S100000_S100000x1_0 _ (ix2 r (0 : Fin 1)) (ix1 r) (fun a => match a with
    | ⟨0, _⟩ => by show r.val = if (100000 : Nat) = 1 then 0 else r.val; rw [if_neg (by decide)])]
  show Ideal.div (Ideal.ofBits .f32 0x3F800000#32) (q (ix1 r)) = _
  rw [word_one]

/-- The first bias as a one-row matrix reads the bias at the column. -/
theorem bias_row (x4 : (⟨Cert.ReferenceIdeal.S128, .f32⟩ : BufTy).Contents (Elt Ideal)) (j : Fin 128) :
    val_main_v25 (F := Ideal) x4 (ix2 (0 : Fin 1) j) = x4 (ix1 j) :=
  (val_main_v25_apply x4 _).trans (congrArg x4 (funext fun a => Fin.ext (by match a with | ⟨0, _⟩ => rfl)))

/-- The second bias likewise. -/
theorem bias_row' (x7 : (⟨Cert.ReferenceIdeal.S128, .f32⟩ : BufTy).Contents (Elt Ideal)) (j : Fin 128) :
    val_main_v53 (F := Ideal) x7 (ix2 (0 : Fin 1) j) = x7 (ix1 j) :=
  (val_main_v53_apply x7 _).trans (congrArg x7 (funext fun a => Fin.ext (by match a with | ⟨0, _⟩ => rfl)))

set_option maxHeartbeats 400000 in
/-- The reference floors the same count twice, once per layer: one divisor. -/
theorem divisor_same (x1 : (⟨Cert.ReferenceIdeal.S2x1600000, .i32⟩ : BufTy).Contents (Elt Ideal)) :
    val_main_v47 (F := Ideal) x1 = val_main_v19 (F := Ideal) x1 := rfl

/-! ## The first region's arrays as it is entered -/

set_option maxHeartbeats 400000 in
/-- The neighbour sum of the input features is the reference's. -/
theorem entry0_sum : (V1 m ρ c main_v22 : S100000x128.Idx → EReal) = val_main_v13 (F := Ideal) (X0 m c) (X1 m c) := by
  show StableHlo.after hostOps0 (W0 m ρ c) (Proc.devRef .tc main_v22) = _
  dsimp only [hostOps0]
  after_results_simp <;> rfl

set_option maxHeartbeats 400000 in
theorem entry0_feat : (V1 m ρ c main_arg0 : S100000x128.Idx → EReal) = X0 m c := by
  show StableHlo.after hostOps0 (W0 m ρ c) (Proc.devRef .tc main_arg0) = _
  dsimp only [hostOps0]
  after_results_simp <;> rfl

set_option maxHeartbeats 400000 in
/-- The scale column is the column of reciprocals of the reference's divisor. -/
theorem entry0_scale : (V1 m ρ c main_v12 : S100000x1.Idx → EReal) = recipColumn (val_main_v19 (F := Ideal) (X1 m c)) := by
  show StableHlo.after hostOps0 (W0 m ρ c) (Proc.devRef .tc main_v12) = _
  dsimp only [hostOps0]
  after_results_simp <;> rfl

set_option maxHeartbeats 400000 in
theorem entry0_wl : (V1 m ρ c main_arg2 : S128x128.Idx → EReal) = X2 m c := by
  show StableHlo.after hostOps0 (W0 m ρ c) (Proc.devRef .tc main_arg2) = _
  dsimp only [hostOps0]
  after_results_simp <;> rfl

set_option maxHeartbeats 400000 in
theorem entry0_wr : (V1 m ρ c main_arg3 : S128x128.Idx → EReal) = X3 m c := by
  show StableHlo.after hostOps0 (W0 m ρ c) (Proc.devRef .tc main_arg3) = _
  dsimp only [hostOps0]
  after_results_simp <;> rfl

set_option maxHeartbeats 400000 in
theorem entry0_bias : (V1 m ρ c main_v23 : S1x128.Idx → EReal) = val_main_v25 (F := Ideal) (X4 m c) := by
  show StableHlo.after hostOps0 (W0 m ρ c) (Proc.devRef .tc main_v23) = _
  dsimp only [hostOps0]
  after_results_simp <;> rfl

/-! ## The first region's exit -/

/-- THE FIRST LAYER'S OUTPUT, as the first region leaves it, is the reference's first layer. -/
theorem exit0 : (W2 m ρ c (Proc.devRef .tc main_v24) : S100000x128.Idx → EReal)
    = val_main_v31 (F := Ideal) (X0 m c) (X1 m c) (X2 m c) (X3 m c) (X4 m c) := by
  refine ((W2_arr m ρ c 6).trans (Layer0.final (V1 m ρ) c)).trans ?_
  show scaled (n := 100000) (d := 128) (e := 128) (V1 m ρ c main_v22) (V1 m ρ c main_arg0) (V1 m ρ c main_v12)
      (V1 m ρ c main_arg2) (V1 m ρ c main_arg3) (V1 m ρ c main_v23) (Ideal.ofBits .f32 0x00000000#32) = _
  rw [entry0_sum, entry0_feat, entry0_scale, entry0_wl, entry0_wr, entry0_bias, Cert.ReferenceIdeal.Layers.first]
  exact scaled_eq_divided _ _ _ _ _ _ _ _ _ (fun r => recipColumn_apply _ r)
    (fun r => Cert.ReferenceIdeal.Layers.divisor_ne_zero _ r) (fun j => bias_row _ j)

/-- An input array of the first region leaves it as it entered: the scale column. -/
theorem exit0_scale : (W2 m ρ c (Proc.devRef .tc main_v12) : S100000x1.Idx → EReal)
    = recipColumn (val_main_v19 (F := Ideal) (X1 m c)) :=
  ((W2_arr m ρ c 2).trans (((dat0 (V1 m ρ) c).arrAt_in 2 rfl _).trans (A_eq0 (V1 m ρ) c 2))).trans (entry0_scale m ρ c)

set_option maxHeartbeats 400000 in
/-- The sources of the edges, which the first region does not touch. -/
theorem exit0_src : W2 m ρ c (Proc.devRef .tc main_v1) = val_main_v1 (F := Ideal) (X1 m c) := by
  refine (W2_of_ne m ρ c main_v1 (by decide)).trans ?_
  show StableHlo.after hostOps0 (W0 m ρ c) (Proc.devRef .tc main_v1) = _
  dsimp only [hostOps0]
  after_results_simp <;> rfl

set_option maxHeartbeats 400000 in
/-- The destinations of the edges likewise. -/
theorem exit0_dst : W2 m ρ c (Proc.devRef .tc main_v3) = val_main_v3 (F := Ideal) (X1 m c) := by
  refine (W2_of_ne m ρ c main_v3 (by decide)).trans ?_
  show StableHlo.after hostOps0 (W0 m ρ c) (Proc.devRef .tc main_v3) = _
  dsimp only [hostOps0]
  after_results_simp <;> rfl

set_option maxHeartbeats 400000 in
/-- The second bias, an argument nothing has written. -/
theorem exit0_bias : W2 m ρ c (Proc.devRef .tc main_arg7) = X7 m c := by
  refine (W2_of_ne m ρ c main_arg7 (by decide)).trans ?_
  show StableHlo.after hostOps0 (W0 m ρ c) (Proc.devRef .tc main_arg7) = _
  dsimp only [hostOps0]
  after_results_simp <;> rfl

/-! ## The second region's arrays as it is entered -/

set_option maxHeartbeats 400000 in
/-- The neighbour sum of the first layer's output is the reference's second neighbour sum. -/
theorem entry1_sum : (V3 m ρ c main_v34 : S100000x128.Idx → EReal) = val_main_v41 (F := Ideal) (X0 m c) (X1 m c) (X2 m c) (X3 m c) (X4 m c) := by
  show StableHlo.after hostOps1 (W2 m ρ c) (Proc.devRef .tc main_v34) = _
  dsimp only [hostOps1]
  after_results
  rw [exit0, exit0_src, exit0_dst]
  rfl

set_option maxHeartbeats 400000 in
theorem entry1_feat : (V3 m ρ c main_v24 : S100000x128.Idx → EReal) = val_main_v31 (F := Ideal) (X0 m c) (X1 m c) (X2 m c) (X3 m c) (X4 m c) := by
  show StableHlo.after hostOps1 (W2 m ρ c) (Proc.devRef .tc main_v24) = _
  dsimp only [hostOps1]
  after_results
  exact exit0 m ρ c

set_option maxHeartbeats 400000 in
theorem entry1_scale : (V3 m ρ c main_v12 : S100000x1.Idx → EReal) = recipColumn (val_main_v19 (F := Ideal) (X1 m c)) := by
  show StableHlo.after hostOps1 (W2 m ρ c) (Proc.devRef .tc main_v12) = _
  dsimp only [hostOps1]
  after_results
  exact exit0_scale m ρ c

/-- The second layer's first weight matrix: an input array of the second region, and an argument. -/
theorem entry1_wl : (V3 m ρ c main_arg5 : S128x128.Idx → EReal) = X5 m c :=
  ((W4_arr m ρ c 3).trans (((dat1 (V3 m ρ) c).arrAt_in 3 rfl _).trans (A_eq1 (V3 m ρ) c 3))).symm.trans (W4_main_arg5 m ρ c)

theorem entry1_wr : (V3 m ρ c main_arg6 : S128x128.Idx → EReal) = X6 m c :=
  ((W4_arr m ρ c 4).trans (((dat1 (V3 m ρ) c).arrAt_in 4 rfl _).trans (A_eq1 (V3 m ρ) c 4))).symm.trans (W4_main_arg6 m ρ c)

set_option maxHeartbeats 400000 in
theorem entry1_bias : (V3 m ρ c main_v35 : S1x128.Idx → EReal) = val_main_v53 (F := Ideal) (X7 m c) := by
  show StableHlo.after hostOps1 (W2 m ρ c) (Proc.devRef .tc main_v35) = _
  dsimp only [hostOps1]
  after_results
  rw [exit0_bias]
  rfl

/-! ## The result -/

/-- THE RESULT ARRAY, as the second region leaves it, is the reference's second layer. -/
theorem result : (W4 m ρ c (Proc.devRef .tc main_v36) : S100000x128.Idx → EReal)
    = val_main_v59 (F := Ideal) (X0 m c) (X1 m c) (X2 m c) (X3 m c) (X4 m c) (X5 m c) (X6 m c) (X7 m c) := by
  refine ((W4_arr m ρ c 6).trans (Layer1.final (V3 m ρ) c)).trans ?_
  show scaled (n := 100000) (d := 128) (e := 128) (V3 m ρ c main_v34) (V3 m ρ c main_v24) (V3 m ρ c main_v12)
      (V3 m ρ c main_arg5) (V3 m ρ c main_arg6) (V3 m ρ c main_v35) (Ideal.ofBits .f32 0x00000000#32) = _
  rw [entry1_sum, entry1_feat, entry1_scale, entry1_wl, entry1_wr, entry1_bias, Cert.ReferenceIdeal.Layers.second,
    divisor_same]
  exact scaled_eq_divided _ _ _ _ _ _ _ _ _ (fun r => recipColumn_apply _ r)
    (fun r => Cert.ReferenceIdeal.Layers.divisor_ne_zero _ r) (fun j => bias_row' _ j)

end Cert.KernelIdeal.Boundaries

end
-- ==== Proof.lean ====
/-
  Two layers of a graph convolution with mean aggregation: a kernel against its reference, on the extended reals.

  Each layer sends node features `h` to
      max ( (A / max (count, 1)) · Wlᵀ + b + h · Wrᵀ , 0 )
  where `A` is, node by node, the sum of the features of the node's in-neighbours and `count` their number. The
  kernel program computes `A`, `count` and the column `1 / max (count, 1)` on the host, and runs one kernel region per
  layer that scales the rows of `A` by that column, forms both products against the rows of the weight matrices, adds
  them, adds the bias and clamps at zero, 5000 nodes per grid point. The reference divides the rows of `A` by
  `max (count, 1)` and adds the three summands in another order.
  On the extended reals the two are one function: dividing by a nonzero `y` is multiplying by `y⁻¹`, so
  `x · (1 / y) = x / y` for every `x`, and `max (count, 1) ≥ 1` is never zero; addition is commutative and
  associative; a change of float format is the identity; a product into a zero accumulator and a product against a
  transposed matrix are the same finite sums. No input is asked to be finite, and the gathers and scatter-additions
  that build `A` and `count` are the same operations on both sides: they are carried as they are, never opened.
  The kernel's idealization rewrote nothing, so it is the kernel's own text read at the extended reals.
-/
import proofs.«117523_j39685497815503_2_alg».proof.Defs
import proofs.«117523_j39685497815503_2_alg».proof.Proof.Gen.Kernel
import proofs.«117523_j39685497815503_2_alg».proof.Proof.Gen.Kernel.Skeleton
import proofs.«117523_j39685497815503_2_alg».proof.Proof.Gen.Kernel.Launch
import proofs.«117523_j39685497815503_2_alg».proof.Proof.Gen.Kernel.Points
import proofs.«117523_j39685497815503_2_alg».proof.Proof.Gen.Kernel.Frame
import proofs.«117523_j39685497815503_2_alg».proof.Proof.Gen.KernelIdeal
import proofs.«117523_j39685497815503_2_alg».proof.Proof.Gen.KernelIdeal.Skeleton
import proofs.«117523_j39685497815503_2_alg».proof.Proof.Gen.KernelIdeal.Launch
import proofs.«117523_j39685497815503_2_alg».proof.Proof.Gen.KernelIdeal.Points
import proofs.«117523_j39685497815503_2_alg».proof.Proof.Gen.KernelIdeal.Frame
import proofs.«117523_j39685497815503_2_alg».proof.Proof.Gen.ReferenceIdeal
import proofs.«117523_j39685497815503_2_alg».proof.Proof.Gen.ReferenceIdeal.Run
import proofs.«117523_j39685497815503_2_alg».proof.Proof.Gen.ReferenceIdeal.Read
import proofs.«117523_j39685497815503_2_alg».proof.Proof.Gen.Pre_finite_inputs
import proofs.«117523_j39685497815503_2_alg».proof.Proof.KernelRun
import proofs.«117523_j39685497815503_2_alg».proof.Proof.Boundaries
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and the kernel's result array — what its second
    region leaves — is the reference's second layer of the same arguments. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v59_eq, h0, h1, h2, h3, h4, h5, h6, h7]
  exact (Cert.KernelIdeal.Boundaries.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
